-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .f32 = 32 ∨ (Rect.block (s := S8192x1024) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .i1⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Quantize.lean ====
/-
  One output entry as a function of its pre-activation `y` (an extended real): the rectifier, then a snap to the
  fixed-point grid with sixteen fractional bits — `round (max y 0 · 2^16) · 2^-16`, the rounding to nearest with
  ties to even, the infinities fixed.

  Two spellings of it meet here. One takes the rectifier as the maximum with zero and leaves the grid by
  multiplying with the constant `2^-16`. The other takes the rectifier as the product of `y` with the indicator of
  `0 < y` (a one-bit comparison read as the number 0 or 1) and leaves the grid by dividing by `2^16`. They agree on
  every extended real, the infinities included: `y · 1 = y = max y 0` above zero, `y · 0 = 0 = max y 0` at or below
  it (a product with zero is zero on the extended reals, at `-∞` too), and dividing by the nonzero real `2^16` is
  multiplying by its reciprocal. No finiteness is needed.
-/
import Idealize.ShloMosaic.PureOps.Ideal
import Idealize.ShloMosaic.PureOps.Ideal.Laws

noncomputable section

namespace Cert.DenseQuant

open Idealize.ShloMosaic

/-- The word `0x47800000` is the float `65536.0 = 2^16`. -/
theorem ofBits_two_pow_16 : Ideal.ofBits .f32 0x47800000#32 = ((65536 : ℝ) : EReal) := by
  simp [Ideal.ofBits, Ideal.ieee, -EReal.coe_mul]; norm_num

/-- The word `0x37800000` is the float `2^-16`, exactly the reciprocal of `65536`. -/
theorem ofBits_two_pow_neg_16 : Ideal.ofBits .f32 0x37800000#32 = ((1 / 65536 : ℝ) : EReal) := by
  simp [Ideal.ofBits, Ideal.ieee, -EReal.coe_mul]; norm_num

/-- The rectifier as a product with the indicator of `0 < y` is the rectifier as a maximum, on every extended real. -/
theorem mul_indicator_eq_max (y : EReal) :
    y * (((Ideal.cmp .ogt y 0).toNat : ℝ) : EReal) = max y 0 := by
  unfold Ideal.cmp
  by_cases h : (0 : EReal) < y
  · simp [h, max_eq_left h.le]
  · simp [h, max_eq_right (not_lt.mp h)]

/-- An output entry from its pre-activation: rectify, scale by `2^16`, round to the nearest integer (ties to even),
    scale back by `2^-16`. -/
def quant (y : EReal) : EReal :=
  Ideal.liftRound Ideal.roundHalfEven (max y 0 * ((65536 : ℝ) : EReal)) * ((1 / 65536 : ℝ) : EReal)

/-- The spelling with the maximum and the product by `2^-16`, the constants as float words. -/
theorem max_form (y : EReal) :
    Ideal.liftRound Ideal.roundHalfEven (max y (Ideal.ofBits .f32 0x00000000#32) * Ideal.ofBits .f32 0x47800000#32)
        * Ideal.ofBits .f32 0x37800000#32 = quant y := by
  rw [Ideal.ofBits_zero_f32, ofBits_two_pow_16, ofBits_two_pow_neg_16]; rfl

/-- The spelling with the indicator product and the division by `2^16`, the constants as float words. -/
theorem indicator_form (y : EReal) :
    Ideal.div (Ideal.liftRound Ideal.roundHalfEven
        ((y * (((Ideal.cmp .ogt y (Ideal.ofBits .f32 0x00000000#32)).toNat : ℝ) : EReal)) * Ideal.ofBits .f32 0x47800000#32))
      (Ideal.ofBits .f32 0x47800000#32) = quant y := by
  rw [Ideal.ofBits_zero_f32, mul_indicator_eq_max, ofBits_two_pow_16,
    Ideal.div_coe (by norm_num : (65536 : ℝ) ≠ 0)]; rfl

end Cert.DenseQuant

end
-- ==== Proof.Dense.lean ====
/-
  The result as ONE function of the three argument arrays, entry by entry: for the activations `x` (8192 × 1024),
  the weights `w` (1024 × 1024) and the bias `b` (1024),

      dense x w b (r, c) = quant ( Σ_k x (r, k) · w (k, c)  +  b c ),

  the pre-activation of a dense layer, rectified and snapped to the fixed-point grid (`quant`). Entry `(r, c)`
  depends on row `r` of `x`, column `c` of `w` and entry `c` of `b` only, so any tiling of the rows computes it
  tile by tile.
-/
import proofs.«113534_j73890617361016_2_alg».proof.Proof.Quantize
import Idealize.ShloMosaic.Lib.ValueIdx

noncomputable section

namespace Cert.DenseQuant

open Idealize.ShloMosaic Idealize.ShloMosaic.ValueIdx

/-- The pre-activation at entry `(r, c)`: row `r` of the activations against column `c` of the weights, plus the
    bias of column `c`. -/
def preact (x : (⟨2, ![8192, 1024]⟩ : Shape).Idx → EReal) (w : (⟨2, ![1024, 1024]⟩ : Shape).Idx → EReal)
    (b : (⟨1, ![1024]⟩ : Shape).Idx → EReal) (i : (⟨2, ![8192, 1024]⟩ : Shape).Idx) : EReal :=
  (∑ k : Fin 1024, x (ix2 (i 0) k) * w (ix2 k (i 1))) + b (ix1 (i 1))

/-- The layer's output at entry `(r, c)`. -/
def dense (x : (⟨2, ![8192, 1024]⟩ : Shape).Idx → EReal) (w : (⟨2, ![1024, 1024]⟩ : Shape).Idx → EReal)
    (b : (⟨1, ![1024]⟩ : Shape).Idx → EReal) : (⟨2, ![8192, 1024]⟩ : Shape).Idx → EReal :=
  fun i => quant (preact x w b i)

end Cert.DenseQuant

end
-- ==== Proof.RefDense.lean ====
/-
  The reference program's result is `dense` of its arguments. Read one operation at a time at an entry `(r, c)`: the
  host's matrix product is the sum over `k` of `x (r, k) · w (k, c)`; the bias, broadcast first to one row and then to
  every row, reads `b c`; the comparison with zero, converted to a float, is the indicator of a positive
  pre-activation; the product with it, the scaling by `2^16`, the rounding and the division by `2^16` are the indicator
  spelling of `quant`.
-/
import proofs.«113534_j73890617361016_2_alg».proof.Proof.Dense
import proofs.«113534_j73890617361016_2_alg».proof.Proof.Gen.ReferenceIdeal.Read

noncomputable section

namespace Cert.DenseQuant

open Idealize.ShloMosaic Idealize.ShloMosaic.ValueIdx
open Cert.ReferenceIdeal Cert.ReferenceIdeal.Read

/-- The left operand of the product at `(r, c)` and `k` is read at `(r, k)`. -/
theorem lidx_eq (i : S8192x1024.Idx) (k : Fin 1024) : lidx_main_v0 i k = ix2 (i 0) k :=
  funext fun a => Fin.ext (by match a with | ⟨0, _⟩ => rfl | ⟨1, _⟩ => rfl)

/-- The right operand is read at `(k, c)`. -/
theorem ridx_eq (i : S8192x1024.Idx) (k : Fin 1024) : ridx_main_v0 i k = ix2 k (i 1) :=
  funext fun a => Fin.ext (by match a with | ⟨0, _⟩ => rfl | ⟨1, _⟩ => rfl)

/-- The bias broadcast to a row and then to every row is read at `c`. -/
theorem bidx_eq (i : S8192x1024.Idx) : idx_main_v1 (idx_main_v2 i) = ix1 (i 1) :=
  funext fun a => Fin.ext (by match a with | ⟨0, _⟩ => rfl)

/-- The reference's result, as a function of the argument arrays, is `dense`. -/
theorem ref_eq_dense (x : S8192x1024.Idx → EReal) (w : S1024x1024.Idx → EReal) (b : S1024.Idx → EReal) :
    val_main_v12 (F := Ideal) x w b = dense x w b := by
  funext i
  rw [val_main_v12_apply, val_main_v10_apply, val_main_v11_apply, val_main_cst_1_apply, val_main_v9_apply,
    val_main_v8_apply, val_main_cst_0_apply, val_main_v7_apply, val_main_v6_apply, val_main_v5_apply,
    val_main_v4_apply, val_main_cst_apply, val_main_v3_apply, val_main_v2_apply, val_main_v1_apply,
    val_main_v0_apply]
  simp only [lidx_eq, ridx_eq, bidx_eq]
  exact indicator_form _

end Cert.DenseQuant

end
-- ==== Proof.TileEntry.lean ====
/-
  What the kernel body stores, read at one entry. The body works on a tile of 2048 rows: it loads the tile `x0` of the
  activations (2048 × 1024), all the weights `x1` (1024 × 1024) and the bias as one row `x2` (1 × 1024), and stores
  one 2048 × 1024 tile. At entry `(p, q)` of the tile the stored value is

      quant ( Σ_k x0 (p, k) · x1 (k, q)  +  x2 (0, q) ):

  the matrix unit's product into a zero accumulator is that sum, the bias row broadcast down the tile reads `x2 (0, q)`,
  and the maximum with zero, the scaling, the rounding and the product with `2^-16` are the maximum spelling of `quant`.
-/
import proofs.«113534_j73890617361016_2_alg».proof.Proof.Dense
import proofs.«113534_j73890617361016_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.DenseQuant

open Idealize.ShloMosaic Idealize.ShloMosaic.ValueIdx
open Cert.KernelIdeal Cert.KernelIdeal.Gen

/-- In the tile's matrix product the left operand's row is the output's row … -/
theorem lhs_row (j : S2048x1024.Idx) (k : dot_S2048x1024_S1024x1024_S2048x1024_1_0_0_1_n_n.contr.Idx) :
    (dot_S2048x1024_S1024x1024_S2048x1024_1_0_0_1_n_n.lhsIdx j k 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- … and the right operand's column is the output's column. -/
theorem rhs_col (j : S2048x1024.Idx) (k : dot_S2048x1024_S1024x1024_S2048x1024_1_0_0_1_n_n.contr.Idx) :
    (dot_S2048x1024_S1024x1024_S2048x1024_1_0_0_1_n_n.rhsIdx j k 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- The matrix unit's product into a zero accumulator, at entry `(p, q)`: row `p` of the left operand against column
    `q` of the right one. -/
theorem tile_matmul (x0 : FVec Ideal S2048x1024 .f32) (x1 : FVec Ideal S1024x1024 .f32) (p : Fin 2048) (q : Fin 1024) :
    matmul (F := Ideal) (φ₁ := .f32) (φ₂ := .f32) dot_S2048x1024_S1024x1024_S2048x1024_1_0_0_1_n_n (some .fp32) x0 x1 (constant S2048x1024 .f32 0x00000000#32) (ix2 p q)
      = ∑ k : Fin 1024, x0 (ix2 p k) * x1 (ix2 k q) := by
  refine (Ideal.matmul_constant_zero_apply dot_S2048x1024_S1024x1024_S2048x1024_1_0_0_1_n_n (some .fp32) x0 x1 (ix2 p q)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k :=
    funext fun a => Fin.ext (by
      match a with
      | ⟨0, _⟩ => exact lhs_row _ _
      | ⟨1, _⟩ => exact (dot_S2048x1024_S1024x1024_S2048x1024_1_0_0_1_n_n.lhsIdx_val_of_single rfl _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q :=
    funext fun a => Fin.ext (by
      match a with
      | ⟨0, _⟩ => exact (dot_S2048x1024_S1024x1024_S2048x1024_1_0_0_1_n_n.rhsIdx_val_of_single rfl _ _).trans hk
      | ⟨1, _⟩ => exact rhs_col _ _)
  rw [el, er]

/-- The bias row, cast to its own shape and broadcast down the tile, reads its entry of column `q` in every row. -/
theorem tile_bias (x2 : Vec Ideal S1x1024 .f32) (p : Fin 2048) (q : Fin 1024) :
    broadcastTo S2048x1024 (shapeCast S1x1024 x2 Facts₀.shapeCasts_S1x1024_S1x1024) Facts₀.broadcasts_S1x1024_S2048x1024 (ix2 p q)
      = x2 (ix2 0 q) := by
  rw [shapeCast_self]
  refine broadcastTo_apply x2 _ (ix2 p q) (ix2 0 q) fun a => ?_
  match a with
  | ⟨0, _⟩ => show (0 : Nat) = if (1 : Nat) = 1 then 0 else _; rw [if_pos rfl]
  | ⟨1, _⟩ => show q.val = if (1024 : Nat) = 1 then 0 else q.val; rw [if_neg (by decide)]

/-- The stored tile at entry `(p, q)`. -/
theorem tile_entry (x0 : Vec Ideal S2048x1024 .f32) (x1 : Vec Ideal S1024x1024 .f32) (x2 : Vec Ideal S1x1024 .f32)
    (p : Fin 2048) (q : Fin 1024) :
    k0_pay1 (F := Ideal) x0 x1 x2 (ix2 p q)
      = quant ((∑ k : Fin 1024, x0 (ix2 p k) * x1 (ix2 k q)) + x2 (ix2 0 q)) := by
  rw [← max_form, ← tile_matmul x0 x1 p q, ← tile_bias x2 p q]
  rfl

end Cert.DenseQuant

end
-- ==== Proof.Tiles.lean ====
/-
  From tiles to the array. The grid has four points; point `t` works on rows `2048·t … 2048·t + 2047`: it is handed that
  row tile of the activations, the whole weight matrix and the whole bias row (the bias reshaped to one row before the
  launch), and writes back that row tile of the result. Entry `(p, q)` of the tile stored at point `t` is `dense` of the
  argument arrays at `(2048·t + p, q)` — the tile's row `p` is row `2048·t + p` of the activations, and the weights and
  the bias do not move with `t`. Every row lies in exactly one tile (the tile of row `r` is `r / 2048`), so the result array
  ends holding `dense` of the arguments everywhere.
-/
import proofs.«113534_j73890617361016_2_alg».proof.Proof.TileEntry
import proofs.«113534_j73890617361016_2_alg».proof.Proof.Gen.KernelIdeal.Value
import Idealize.ShloMosaic.Lib.Pipeline.Value
import Idealize.ShloMosaic.Lib.StableHlo.Run
import Idealize.ShloMosaic.Lib.Tactic

noncomputable section

namespace Cert.DenseQuant

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-- Which block each window holds at point `t`: the activations' and the result's row tile `t`, the one block of the
    weights and of the bias row. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias as the launch finds it: the argument reshaped to one row. -/
theorem bias_row (c : Dev nD) :
    (V m c main_v0 : S1x1024.Idx → EReal)
      = shapeCast S1x1024 (m ((c : Thread nD τ).loc main_arg2) : S1024.Idx → EReal) Facts₀.shapeCasts_S1024_S1x1024 := by
  dsimp only [V, hostOps0]
  after_results
  rfl

/-- Entry `(0, q)` of the bias row is entry `q` of the bias. -/
theorem bias_row_apply (c : Dev nD) (q : Fin 1024) :
    (V m c main_v0 : S1x1024.Idx → EReal) (ix2 0 q) = (m ((c : Thread nD τ).loc main_arg2) : S1024.Idx → EReal) (ix1 q) := by
  rw [bias_row]
  refine shapeCast_apply _ _ (ix2 0 q) (ix1 q) ?_
  rw [Shape.rowMajor_val_one, Shape.rowMajor_val_two]
  show q.val = 0 * 1024 + q.val
  omega

/-- Row `p` of the activations' tile at point `t` is row `2048·t + p` of the activations. -/
theorem x_tile (c : Dev nD) (t : Fin cfg0.N) (p : Fin 2048) (k : Fin 1024) (r : Fin 8192) (hr : r.val = t.val * 2048 + p.val) :
    (iblk m c 0 t : Vec Ideal S2048x1024 .f32) (ix2 p k)
      = (m ((c : Thread nD τ).loc main_arg0) : S8192x1024.Idx → EReal) (ix2 r k) := by
  obtain ⟨e0, e1, -⟩ := tile_index t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 1024 + 1 * k.val = k.val; rw [e1]; omega

/-- The weights' block is the whole matrix at every point. -/
theorem w_tile (c : Dev nD) (t : Fin cfg0.N) (k q : Fin 1024) :
    (iblk m c 1 t : Vec Ideal S1024x1024 .f32) (ix2 k q)
      = (m ((c : Thread nD τ).loc main_arg1) : S1024x1024.Idx → EReal) (ix2 k q) := by
  obtain ⟨-, -, e0, e1, -⟩ := tile_index t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega

/-- The bias row's block is the whole row at every point. -/
theorem b_tile (c : Dev nD) (t : Fin cfg0.N) (q : Fin 1024) :
    (iblk m c 2 t : Vec Ideal S1x1024 .f32) (ix2 0 q)
      = (m ((c : Thread nD τ).loc main_arg2) : S1024.Idx → EReal) (ix1 q) := by
  obtain ⟨-, -, -, -, e0, e1, -⟩ := tile_index t
  unfold iblk
  rw [View.read_apply]
  refine Eq.trans (congrArg (V m c main_v0 : S1x1024.Idx → EReal) (funext fun a => Fin.ext ?_)) (bias_row_apply m c q)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- What point `t` writes back is tile `t` of `dense` of the argument arrays. -/
theorem flushed_eq (c : Dev nD) (t : Fin cfg0.N) :
    (dats m 0 c).flushed 3 t = ((cfg0.win 3).blk t).view.read (Elt Ideal)
      (dense (m ((c : Thread nD τ).loc main_arg0)) (m ((c : Thread nD τ).loc main_arg1)) (m ((c : Thread nD τ).loc main_arg2))) := by
  rw [Cert.KernelIdeal.Value.flushed3]
  unfold out0_3
  rw [View.canon_unit_zero offsets_zero]
  simp only [View.ld_unit_zero (S := S2048x1024) offsets_zero, View.ld_unit_zero (S := S1024x1024) offsets_zero,
    View.ld_unit_zero (S := S1x1024) offsets_zero]
  obtain ⟨-, -, -, -, -, -, e0, e1⟩ := tile_index t
  funext j
  obtain ⟨p, q, rfl⟩ : ∃ (p : Fin 2048) (q : Fin 1024), j = ix2 p q := ⟨j 0, j 1, eq_ix2 j⟩
  have ht : t.val < 4 := by
    have h := t.isLt
    have hN : cfg0.N = 4 := N_0
    omega
  let r : Fin 8192 := ⟨t.val * 2048 + p.val, by have := p.isLt; omega⟩
  have hemb : ((cfg0.win 3).blk t).view.emb (ix2 p q) = (ix2 r q : S8192x1024.Idx) :=
    funext fun a => Fin.ext (by
      match a with
      | ⟨0, _⟩ => show win0_3.index t (0 : Fin 2) * 2048 + 1 * p.val = t.val * 2048 + p.val; rw [e0]; omega
      | ⟨1, _⟩ => show win0_3.index t (1 : Fin 2) * 1024 + 1 * q.val = q.val; rw [e1]; omega)
  show k0_pay1 (F := Ideal) (iblk m c 0 t) (iblk m c 1 t) (iblk m c 2 t) (ix2 p q) = dense _ _ _ (((cfg0.win 3).blk t).view.emb (ix2 p q))
  rw [hemb]
  refine (tile_entry (iblk m c 0 t) (iblk m c 1 t) (iblk m c 2 t) p q).trans ?_
  unfold dense preact
  refine congrArg quant ?_
  rw [b_tile m c t q]
  refine congrArg (· + _) (Finset.sum_congr rfl fun k _ => ?_)
  rw [x_tile m c t p k r rfl, w_tile m c t k q]

/-- An index is in tile `t` iff each coordinate is in the tile's range on its axis. -/
theorem mem_tile (t : Fin cfg0.N) (i : S8192x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v1).slice (win0_3.rect t)).set ↔ _
  rw [View.set_slice_whole, Rect.mem_set_unit]
  exact Iff.rfl

/-- Every index of the result lies in the tile of its row. -/
theorem tiles_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 4 := N_0
  let t : Fin cfg0.N := ⟨(i 0).val / 2048, by rw [hN]; omega⟩
  obtain ⟨-, -, -, -, -, -, e0, e1⟩ := tile_index t
  refine ⟨t, flush0_3 t, ?_⟩
  rw [mem_tile]
  intro a
  match a with
  | ⟨0, _⟩ =>
    show win0_3.index t (0 : Fin 2) * 2048 ≤ (i 0).val ∧ (i 0).val < win0_3.index t (0 : Fin 2) * 2048 + 2048
    rw [e0]; show (i 0).val / 2048 * 2048 ≤ (i 0).val ∧ (i 0).val < (i 0).val / 2048 * 2048 + 2048; omega
  | ⟨1, _⟩ =>
    show win0_3.index t (1 : Fin 2) * 1024 ≤ (i 1).val ∧ (i 1).val < win0_3.index t (1 : Fin 2) * 1024 + 1024
    rw [e1]; omega

/-- The result array after the run is `dense` of the argument arrays. -/
theorem result_eq (c : Dev nD) : (dats m 0 c).arrAt 3 cfg0.N
    = dense (m ((c : Thread nD τ).loc main_arg0)) (m ((c : Thread nD τ).loc main_arg1)) (m ((c : Thread nD τ).loc main_arg2)) :=
  (dats m 0 c).arrAt_eq_of_cover 3 _ (fun t _ => flushed_eq m c t) tiles_cover

/-- The kernel's run: the result array at `dense` of the arguments, the arguments unchanged. -/
theorem run : θ_run defs (onTc (τ := τ) (main (F := Ideal))) ⟨m, fun _ => 0, ρ⟩ fun r => ∀ c : Dev nD,
      r.2.mem ((c : Thread nD τ).loc main_v1)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩)
    (Cert.KernelIdeal.Value.run_blocks m ρ)

end Cert.DenseQuant

end
-- ==== Proof.lean ====
/-
  A dense layer with a rectifier and a fixed-point snap, tiled over rows, against the same layer written with whole
  arrays.

  Both programs take activations `x` (8192 × 1024), weights `w` (1024 × 1024) and a bias `b` (1024), all finite, and
  return an 8192 × 1024 array. Read over the extended reals, entry `(r, c)` of both results is

      quant ( Σ_k x (r, k) · w (k, c)  +  b c ),     quant y = round (max y 0 · 2^16) · 2^-16,

  the rounding to the nearest integer with ties to even (Proof/Quantize.lean, Proof/Dense.lean).

  The kernel walks four row tiles of 2048 rows; at each it multiplies the tile by the whole weight matrix on the matrix
  unit (into a zero accumulator: the plain sum of products), adds the bias row, takes the maximum with zero, scales by
  `2^16`, rounds, and scales by the constant `2^-16` (Proof/TileEntry.lean); the tiles partition the rows, so the result
  array is that function everywhere (Proof/Tiles.lean). The reference forms the product and the bias on whole arrays,
  rectifies by multiplying with the indicator of a positive pre-activation, scales by `2^16`, rounds, and divides by
  `2^16` (Proof/RefDense.lean). The two rectifiers agree on every extended real, and dividing by `2^16` is multiplying by
  its exact reciprocal `2^-16`, so the two results are one function of the arguments. The finiteness of the inputs is
  not used: no step cancels or distributes.

  The three programs' runs (termination, no fault, arguments unchanged) are the generated frame certificates of the two
  kernels and the generated run of the reference; no operation of the kernel was rewritten by the idealization, so
  there is nothing to preserve beyond reading the same text over the extended reals.
-/
import proofs.«113534_j73890617361016_2_alg».proof.Defs
import proofs.«113534_j73890617361016_2_alg».proof.Proof.Gen.Kernel
import proofs.«113534_j73890617361016_2_alg».proof.Proof.Gen.Kernel.Skeleton
import proofs.«113534_j73890617361016_2_alg».proof.Proof.Gen.Kernel.Launch
import proofs.«113534_j73890617361016_2_alg».proof.Proof.Gen.Kernel.Points
import proofs.«113534_j73890617361016_2_alg».proof.Proof.Gen.Kernel.Frame
import proofs.«113534_j73890617361016_2_alg».proof.Proof.Gen.KernelIdeal
import proofs.«113534_j73890617361016_2_alg».proof.Proof.Gen.KernelIdeal.Skeleton
import proofs.«113534_j73890617361016_2_alg».proof.Proof.Gen.KernelIdeal.Launch
import proofs.«113534_j73890617361016_2_alg».proof.Proof.Gen.KernelIdeal.Points
import proofs.«113534_j73890617361016_2_alg».proof.Proof.Gen.KernelIdeal.Frame
import proofs.«113534_j73890617361016_2_alg».proof.Proof.Gen.ReferenceIdeal
import proofs.«113534_j73890617361016_2_alg».proof.Proof.Gen.Pre_finite_inputs
import proofs.«113534_j73890617361016_2_alg».proof.Proof.Gen.KernelIdeal.Value
import proofs.«113534_j73890617361016_2_alg».proof.Proof.Gen.ReferenceIdeal.Run
import proofs.«113534_j73890617361016_2_alg».proof.Proof.Gen.ReferenceIdeal.Read
import proofs.«113534_j73890617361016_2_alg».proof.Proof.RefDense
import proofs.«113534_j73890617361016_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result array at `dense` of the arguments:
    the kernel tile by tile, the reference operation by operation. -/
theorem algebraic : Cert.algebraic_KernelIdeal_ReferenceIdeal := by
  intro m ρ m' ρ' _ hagree
  refine ⟨fun c => Cert.DenseQuant.dense (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.DenseQuant.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.DenseQuant.ref_eq_dense, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
